-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩
abbrev S1024x128 : Shape := ⟨2, ![1024, 128]⟩
abbrev S2048x128 : Shape := ⟨2, ![2048, 128]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x128_S8192_d1 : S8192x128.ReducesTo [1] S8192
  h_S_ : 0 < S_.numel
  bcast_S8192_S1x8192_1 : S8192.BroadcastsInDim S1x8192 (![1] : Fin 1 → Fin S1x8192.rank)
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  reduces_S1024x128_S1024 : S1024x128.Reduces [1] S1024
  shapeCasts_S1024_S1024x1 : S1024.ShapeCasts S1024x1
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S8192x128_S8192x8192_1_1_0_0_n_n_wf : DotDims.WF S8192x128 S8192x128 S8192x8192 [1] [1] [0] [0] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf

class Facts : Prop extends Facts₀ where

variable [Facts]
-- ==== Proof.SqDist.lean ====
/-
  Pairwise squared distances, as functions on the extended reals.

  For two families of 8192 points in dimension 128, `X` and `Y`, the entry `(r, c)` of the result is
  `‖X r‖² + ‖Y c‖² − 2 ⟨X r, Y c⟩`, each of the three terms a sum over the 128 coordinates. One program returns
  this number as it is, the other returns its maximum with zero. When every coordinate is a real number the
  three sums recombine into `∑ k, (X r k − Y c k)²`, a sum of squares, so the number is nonnegative and the
  maximum with zero changes nothing. With an infinite coordinate the recombination fails (`⊤ − ⊤` is `⊥`),
  which is why the law is stated for real entries only.
-/
import Idealize.ShloMosaic.PureOps.Ideal
import Idealize.ShloMosaic.PureOps.Ideal.Laws
import Idealize.ShloMosaic.Lib.ValueIdx

noncomputable section

open scoped BigOperators

namespace Cert.SqDist

open Idealize.ShloMosaic Idealize.ShloMosaic.ValueIdx

/-- The shape of each family of points: 8192 rows of 128 coordinates. -/
abbrev Pts : Shape := ⟨2, ![8192, 128]⟩
/-- The shape of the table of distances. -/
abbrev Tab : Shape := ⟨2, ![8192, 8192]⟩

/-- The squared norm of row `r`: the sum of the squares of its coordinates. -/
def sqnorm (X : Pts.Idx → EReal) (r : Fin 8192) : EReal := ∑ k : Fin 128, X (ix2 r k) * X (ix2 r k)

/-- The inner product of row `r` of `X` with row `c` of `Y`. -/
def cross (X Y : Pts.Idx → EReal) (r c : Fin 8192) : EReal := ∑ k : Fin 128, X (ix2 r k) * Y (ix2 c k)

/-- The squared distance by the expanded square: `‖X r‖² + ‖Y c‖² − 2 ⟨X r, Y c⟩`, the factor `2` the
    float pattern of `2.0`. -/
def dist (X Y : Pts.Idx → EReal) : Tab.Idx → EReal := fun i =>
  (sqnorm X (i 0) + sqnorm Y (i 1)) - Ideal.ofBits .f32 0x40000000#32 * cross X Y (i 0) (i 1)

/-- The same, cut off below at the float pattern of `0.0`. -/
def clamped (X Y : Pts.Idx → EReal) : Tab.Idx → EReal := fun i =>
  max (dist X Y i) (Ideal.ofBits .f32 0x00000000#32)

/-- The pattern of `2.0` denotes the real number `2`. -/
theorem ofBits_two : Ideal.ofBits .f32 0x40000000#32 = ((2 : ℝ) : EReal) := by
  simp [Ideal.ofBits, Ideal.ieee, -EReal.coe_mul]; norm_num

/-- The inclusion of the reals in the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- On real coordinates the expanded square is the sum of the squared differences. -/
theorem dist_coe (x y : Pts.Idx → ℝ) (i : Tab.Idx) :
    dist (fun j => (x j : EReal)) (fun j => (y j : EReal)) i
      = ((∑ k : Fin 128, (x (ix2 (i 0) k) - y (ix2 (i 1) k)) ^ 2 : ℝ) : EReal) := by
  unfold dist sqnorm cross
  rw [ofBits_two]
  simp only [← EReal.coe_mul, ← coe_sum, ← EReal.coe_add, ← EReal.coe_sub]
  refine congrArg _ ?_
  rw [Finset.mul_sum, ← Finset.sum_add_distrib, ← Finset.sum_sub_distrib]
  exact Finset.sum_congr rfl fun k _ => by ring

/-- So a squared distance between points with real coordinates is nonnegative. -/
theorem dist_nonneg (X Y : Pts.Idx → EReal) (hX : ∀ j, ∃ r : ℝ, X j = r) (hY : ∀ j, ∃ r : ℝ, Y j = r) (i : Tab.Idx) :
    0 ≤ dist X Y i := by
  choose x hx using hX
  choose y hy using hY
  obtain rfl : X = fun j => (x j : EReal) := funext hx
  obtain rfl : Y = fun j => (y j : EReal) := funext hy
  rw [dist_coe]
  exact EReal.coe_nonneg.mpr (Finset.sum_nonneg fun k _ => sq_nonneg _)

/-- and cutting it off at zero changes nothing. -/
theorem clamped_eq_dist (X Y : Pts.Idx → EReal) (hX : ∀ j, ∃ r : ℝ, X j = r) (hY : ∀ j, ∃ r : ℝ, Y j = r) :
    clamped X Y = dist X Y := by
  funext i
  unfold clamped
  rw [Ideal.ofBits_zero_f32]
  exact max_eq_left (dist_nonneg X Y hX hY i)

end Cert.SqDist

end
-- ==== Proof.RefDist.lean ====
/-
  The reference computes the expanded square entry by entry: the two squared norms by a sum along the
  coordinate axis from zero, each spread along the other axis of the table, the inner products by one product of
  the two families contracted over the coordinate axis, and the combination `(‖X r‖² + ‖Y c‖²) − 2 ⟨X r, Y c⟩`.
  Read at the entry `(r, c)` this is the specification's `dist`; the only thing to see is that each spreading
  and each contraction reads row `r` of `X` and row `c` of `Y`, and that the sums' initial value is zero.
-/
import proofs.«181156_j11630771438032_2_alg».proof.Proof.Gen.ReferenceIdeal.Read
import proofs.«181156_j11630771438032_2_alg».proof.Proof.SqDist

noncomputable section

open scoped BigOperators

namespace Cert.ReferenceIdeal.RefDist

open Cert.ReferenceIdeal Cert.ReferenceIdeal.Read Idealize.ShloMosaic Idealize.ShloMosaic.ValueIdx

/-- The reference's result, as a function of the two argument arrays, is the table of squared distances. -/
theorem ref_is_dist (X Y : (⟨S8192x128, .f32⟩ : BufTy).Contents (Elt Ideal)) :
    val_main_v12 (F := Ideal) X Y = Cert.SqDist.dist X Y := by
  funext i
  obtain ⟨r, c, rfl⟩ : ∃ (r : Fin 8192) (c : Fin 8192), i = ix2 r c := ⟨i 0, i 1, eq_ix2 i⟩
  -- the row of `X` read by the first norm, of `Y` by the second, and the two rows the contraction pairs
  have e1 : ∀ k : Fin 128, idx_main_v1 (idx_main_v5 (idx_main_v7 (ix2 r c))) k = ix2 r k := fun k =>
    funext fun a => Fin.ext (by match a with | ⟨0, _⟩ => rfl | ⟨1, _⟩ => rfl)
  have e2 : ∀ k : Fin 128, idx_main_v3 (idx_main_v6 (idx_main_v8 (ix2 r c))) k = ix2 c k := fun k =>
    funext fun a => Fin.ext (by match a with | ⟨0, _⟩ => rfl | ⟨1, _⟩ => rfl)
  have e3 : ∀ k : Fin 128, lidx_main_v4 (ix2 r c) k = ix2 r k := fun k =>
    funext fun a => Fin.ext (by match a with | ⟨0, _⟩ => rfl | ⟨1, _⟩ => rfl)
  have e4 : ∀ k : Fin 128, ridx_main_v4 (ix2 r c) k = ix2 c k := fun k =>
    funext fun a => Fin.ext (by match a with | ⟨0, _⟩ => rfl | ⟨1, _⟩ => rfl)
  rw [val_main_v12_apply, val_main_v9_apply, val_main_v11_apply, val_main_v7_apply, val_main_v5_apply,
    val_main_v1_apply, val_main_v8_apply, val_main_v6_apply, val_main_v3_apply, val_main_v10_apply,
    val_main_v4_apply]
  simp only [val_main_v0_apply, val_main_v2_apply, val_main_cst_apply, val_main_cst_0_apply, val_main_cst_1_apply,
    Ideal.subf_def, Ideal.addf_def, Ideal.mulf_def, Ideal.ofBits_def, Ideal.ofBits_zero_f32, zero_add, e1, e2, e3, e4]
  rfl

end Cert.ReferenceIdeal.RefDist

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.TileValue.lean ====
/-
  What one step of the grid stores, entry by entry. The body loads a tile of 1024 rows of `X`, a tile of 2048
  rows of `Y` and the matching 2048 squared norms of `Y` (one row), and stores, at `(p, q)` of the 1024 × 2048
  output tile,
      max ((∑ k, x p k · x p k  +  ysq q)  −  2 · ∑ k, x p k · y q k)  0 :
  the first sum is the row sum of the squares kept as a column, the last the product of the two tiles contracted
  over the 128 coordinates into a zero accumulator; the narrowing of the tiles to a shorter float format before
  the product is the identity on the extended reals.
-/
import proofs.«181156_j11630771438032_2_alg».proof.Proof.Gen.KernelIdeal.Skeleton
import proofs.«181156_j11630771438032_2_alg».proof.Proof.LibKeepdims

noncomputable section

open scoped BigOperators

namespace Cert.KernelIdeal.TileValue

open Cert.KernelIdeal Cert.KernelIdeal.Gen Idealize.ShloMosaic Idealize.ShloMosaic.ValueIdx

/-- The contraction the body's product performs: rows of the first tile against rows of the second, over the
    coordinate axis. -/
abbrev D : DotDims S1024x128 S2048x128 S1024x2048 := dot_S1024x128_S2048x128_S1024x2048_1_1_0_0_n_n

/-- The left factor's row is the output's row, -/
theorem lhs_row (i : S1024x2048.Idx) (q : D.contr.Idx) : (D.lhsIdx i q 0).val = (i 0).val := by
  unfold DotDims.lhsIdx
  rw [dif_neg (show ¬(0 : Fin S1024x128.rank) ∈ D.lhsBatch by decide), dif_pos (show (0 : Fin S1024x128.rank) ∈ D.lhsNonContracting by decide)]
  rfl
/-- its coordinate the contracted one; -/
theorem lhs_coord (i : S1024x2048.Idx) (q : D.contr.Idx) : (D.lhsIdx i q 1).val = (q ⟨0, by decide⟩).val :=
  D.lhsIdx_val_of_single rfl i q
/-- the right factor's row is the output's column, -/
theorem rhs_row (i : S1024x2048.Idx) (q : D.contr.Idx) : (D.rhsIdx i q 0).val = (i 1).val := by
  unfold DotDims.rhsIdx
  rw [dif_neg (show ¬(0 : Fin S2048x128.rank) ∈ D.rhsBatch by decide), dif_pos (show (0 : Fin S2048x128.rank) ∈ D.rhsNonContracting by decide)]
  rfl
/-- its coordinate the contracted one. -/
theorem rhs_coord (i : S1024x2048.Idx) (q : D.contr.Idx) : (D.rhsIdx i q 1).val = (q ⟨0, by decide⟩).val :=
  D.rhsIdx_val_of_single rfl i q

/-- The product of the two tiles into a zero accumulator, at `(p, q)`: the inner product of row `p` of the first
    with row `q` of the second. -/
theorem tile_cross (a : FVec Ideal S1024x128 .bf16) (b : FVec Ideal S2048x128 .bf16) (p : Fin 1024) (q : Fin 2048) :
    matmul D none a b (constant S1024x2048 .f32 0x00000000#32) (ix2 p q) = ∑ k : Fin 128, a (ix2 p k) * b (ix2 q k) := by
  refine (Ideal.matmul_constant_zero_apply D none a b (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun ax => Fin.ext (by
    match ax with
    | ⟨0, _⟩ => exact lhs_row _ _
    | ⟨1, _⟩ => exact (lhs_coord _ _).trans hk)
  have er : D.rhsIdx (ix2 p q) ((contrEquiv1 D 128 rfl rfl).symm k) = ix2 q k := funext fun ax => Fin.ext (by
    match ax with
    | ⟨0, _⟩ => exact rhs_row _ _
    | ⟨1, _⟩ => exact (rhs_coord _ _).trans hk)
  rw [el, er]

/-- THE STORED TILE at `(p, q)`, from the three loaded blocks. -/
theorem stored_apply (x0 : Vec Ideal S1024x128 .f32) (x1 : Vec Ideal S2048x128 .f32) (x2 : Vec Ideal S1x2048 .f32)
    (p : Fin 1024) (q : Fin 2048) :
    k0_pay1 (F := Ideal) x0 x1 x2 (ix2 p q)
      = max (((∑ k : Fin 128, x0 (ix2 p k) * x0 (ix2 p k)) + x2 (ix2 (0 : Fin 1) q))
              - Ideal.ofBits .f32 0x40000000#32 * ∑ k : Fin 128, x0 (ix2 p k) * x1 (ix2 q k))
            (Ideal.ofBits .f32 0x00000000#32) := by
  unfold k0_pay1
  dsimp only
  exact congrArg₂ max
    (congrArg₂ HSub.hSub
      (congrArg₂ HAdd.hAdd
        (Cert.LibKeepdims.rowSum_column_apply (mulf x0 x0) _ _ _ _ _ p q)
        (Cert.LibKeepdims.row_spread_apply x2 _ _ p q))
      (congrArg (Ideal.ofBits .f32 0x40000000#32 * ·) (tile_cross _ _ p q)))
    rfl

end Cert.KernelIdeal.TileValue

end
-- ==== Proof.HostNorms.lean ====
/-
  Before the region the host squares `Y` entry by entry, sums each row from zero and lays the 8192 sums out as
  one row `[1, 8192]`; that row is the array the third input window reads. Its entry `(0, j)` is the squared norm
  of row `j` of `Y`: the laying-out reads the vector of sums at `j`, and the sum from zero is the plain sum of the
  128 squares of that row.
-/
import proofs.«181156_j11630771438032_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostNorms

open Cert.KernelIdeal Cert.KernelIdeal.Gen Idealize.ShloMosaic Idealize.ShloMosaic.TcCoe Idealize.SL.Sem
open Idealize.ShloMosaic.ValueIdx Idealize.ShloMosaic.StableHlo

/-- The row of squared norms, as a function of `Y`: square, sum each row from zero, lay out as one row. -/
def normsRow (Y : FVec Ideal S8192x128 .f32) : FVec Ideal S1x8192 .f32 :=
  broadcastInDim S1x8192 ![1] bcast_S8192_S1x8192_1
    (Host.reduceAdd (F := Ideal) (mulf Y Y) (constant (F := Ideal) S_ .f32 0x00000000#32) reducesTo_S8192x128_S8192_d1 h_S_)

/-- Its entry `(u, j)` is the squared norm of row `j` of `Y`. -/
theorem normsRow_apply (Y : FVec Ideal S8192x128 .f32) (u : Fin 1) (j : Fin 8192) :
    normsRow Y (ix2 u j) = ∑ k : Fin 128, Y (ix2 j k) * Y (ix2 j k) := by
  unfold normsRow
  refine (broadcastInDim_apply _ bcast_S8192_S1x8192_1 _ (ix2 u j) (ix1 j) (fun a => match a with
    | ⟨0, _⟩ => by show j.val = if (8192 : Nat) = 1 then 0 else j.val; rw [if_neg (by decide)])).trans ?_
  simp only [Host.reduceAdd, Ideal.hostReduceAdd_def]
  rw [Ideal.hostReduceAdd_single reducesTo_S8192x128_S8192_d1 (by decide)]
  show Ideal.ofBits .f32 0x00000000#32 + _ = _
  rw [Ideal.ofBits_zero_f32, zero_add]
  exact Finset.sum_congr rfl fun k _ => congrArg (mulf Y Y)
    (funext fun a => Fin.ext (by match a with | ⟨0, _⟩ => rfl | ⟨1, _⟩ => rfl))

/-- The array the third window reads, as the region finds it, is that row of the second argument. -/
theorem V_norms (m : (ℓ : Loc nD τ sig) → Buf (Elt Ideal) ℓ) (c : Dev nD) :
    (V m c main_v2 : S1x8192.Idx → EReal) = normsRow (m ((c : Thread nD τ).loc main_arg1)) := by
  dsimp only [Gen.V, Gen.hostOps0]
  after_results
  rfl

end Cert.KernelIdeal.HostNorms

end
-- ==== Proof.TableValue.lean ====
/-
  From tiles to the whole table. The grid has 4 × 8 steps; step `t` with coordinates `(j, i)` works on rows
  `1024 i … 1024 i + 1023` of `X`, rows `2048 j … 2048 j + 2047` of `Y` and the same range of `Y`'s squared
  norms, and writes the tile of the table at block `(i, j)`. An entry `(p, q)` of that tile is therefore the
  clamped squared distance at the table's entry `(1024 i + p, 2048 j + q)`: each loaded block, read where the
  body reads it, is the whole array read at the matching row. The 32 tiles are exactly the blocks `(i, j)` with
  `i < 8`, `j < 4`, so every entry of the table is written by the step at `(row / 1024, column / 2048)`, and after
  the run the table is the clamped squared distance everywhere.
-/
import proofs.«181156_j11630771438032_2_alg».proof.Proof.Gen.KernelIdeal.Value
import proofs.«181156_j11630771438032_2_alg».proof.Proof.SqDist
import proofs.«181156_j11630771438032_2_alg».proof.Proof.TileValue
import proofs.«181156_j11630771438032_2_alg».proof.Proof.HostNorms

noncomputable section

open scoped BigOperators

namespace Cert.KernelIdeal.TableValue

open Cert.KernelIdeal Cert.KernelIdeal.Gen Idealize.ShloMosaic Idealize.ShloMosaic.TcCoe Idealize.SL.Sem
open Idealize.ShloMosaic.Pipeline (Dat)
open Idealize.ShloMosaic.ValueIdx
open Cert.SqDist (sqnorm cross dist clamped)

variable (m : (ℓ : Loc nD τ sig) → Buf (Elt Ideal) ℓ) (ρ : Dev nD → PrngReg)

/-- Every access of the body starts at the corner of its buffer. -/
theorem corner : (![0, 0] : Fin 2 → Nat) = fun _ => 0 := funext fun a => by fin_cases a <;> rfl

/-- ONE ENTRY of a stored tile is the clamped squared distance at a table entry `i`, as soon as the three loaded
    blocks hold, where the body reads them, row `i 0` of `X`, row `i 1` of `Y` and the squared norm of that row. -/
theorem entry (x0 : Vec Ideal S1024x128 .f32) (x1 : Vec Ideal S2048x128 .f32) (x2 : Vec Ideal S1x2048 .f32)
    (X Y : Cert.SqDist.Pts.Idx → EReal) (i : Cert.SqDist.Tab.Idx) (p : Fin 1024) (q : Fin 2048)
    (hx0 : ∀ k : Fin 128, x0 (ix2 p k) = X (ix2 (i 0 : Fin 8192) k))
    (hx1 : ∀ k : Fin 128, x1 (ix2 q k) = Y (ix2 (i 1 : Fin 8192) k))
    (hx2 : x2 (ix2 (0 : Fin 1) q) = sqnorm Y (i 1)) :
    k0_pay1 (F := Ideal) x0 x1 x2 (ix2 p q) = clamped X Y i := by
  rw [Cert.KernelIdeal.TileValue.stored_apply, hx2]
  simp only [hx0, hx1]
  rfl

/-- The printed index maps over the 32 steps: the `X` tile moves with the output's row block, the `Y` tile and the
    norms with its column block, and the output's blocks stay inside 8 × 4. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the 8 × 4 arrangement is some step's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- WHAT STEP `t` WRITES BACK is block `t` of the clamped squared distances of the two argument arrays. -/
theorem flushed_eq (c : Dev nD) (t : Fin cfg0.N) :
    (dats m 0 c).flushed 3 t = ((cfg0.win 3).blk t).view.read (Elt Ideal)
      (clamped (m ((c : Thread nD τ).loc main_arg0)) (m ((c : Thread nD τ).loc main_arg1))) := by
  rw [Cert.KernelIdeal.Value.flushed3]
  unfold out0_3
  rw [View.canon_unit_zero corner]
  simp only [View.ld_unit_zero (S := S1024x128) corner, View.ld_unit_zero (S := S2048x128) corner,
    View.ld_unit_zero (S := S1x2048) corner]
  obtain ⟨e0, e1, e2, e3, e4, e5, e6, e7⟩ := idx_facts t
  funext y
  obtain ⟨p, q, rfl⟩ : ∃ (p : Fin 1024) (q : Fin 2048), y = ix2 p q := ⟨y 0, y 1, eq_ix2 y⟩
  show k0_pay1 (F := Ideal) (iblk m c 0 t) (iblk m c 1 t) (iblk m c 2 t) (ix2 p q)
    = clamped (m ((c : Thread nD τ).loc main_arg0)) (m ((c : Thread nD τ).loc main_arg1))
        (((cfg0.win 3).blk t).view.emb (ix2 p q))
  refine entry (iblk m c 0 t) (iblk m c 1 t) (iblk m c 2 t) (m ((c : Thread nD τ).loc main_arg0))
    (m ((c : Thread nD τ).loc main_arg1)) (((cfg0.win 3).blk t).view.emb (ix2 p q)) p q ?_ ?_ ?_
  · -- the `X` tile at `(p, k)` is `X` at the table entry's row
    intro k
    show V m c main_arg0 (((cfg0.win 0).blk t).view.emb (ix2 p k)) = _
    rw [V_main_arg0]
    refine congrArg (m ((c : Thread nD τ).loc main_arg0)) (funext fun a => Fin.ext ?_)
    match a with
    | ⟨0, _⟩ =>
      show win0_0.index t (0 : Fin 2) * 1024 + 1 * p.val = win0_3.index t (0 : Fin 2) * 1024 + 1 * p.val
      omega
    | ⟨1, _⟩ =>
      show win0_0.index t (1 : Fin 2) * 128 + 1 * k.val = k.val
      omega
  · -- the `Y` tile at `(q, k)` is `Y` at the table entry's column
    intro k
    show V m c main_arg1 (((cfg0.win 1).blk t).view.emb (ix2 q k)) = _
    rw [V_main_arg1]
    refine congrArg (m ((c : Thread nD τ).loc main_arg1)) (funext fun a => Fin.ext ?_)
    match a with
    | ⟨0, _⟩ =>
      show win0_1.index t (0 : Fin 2) * 2048 + 1 * q.val = win0_3.index t (1 : Fin 2) * 2048 + 1 * q.val
      omega
    | ⟨1, _⟩ =>
      show win0_1.index t (1 : Fin 2) * 128 + 1 * k.val = k.val
      omega
  · -- the norms' block at `(0, q)` is the squared norm of that row of `Y`
    show V m c main_v2 (((cfg0.win 2).blk t).view.emb (ix2 (0 : Fin 1) q)) = _
    rw [Cert.KernelIdeal.HostNorms.V_norms]
    have hq : q.val < 2048 := q.isLt
    have hlt : win0_3.index t (1 : Fin 2) * 2048 + q.val < 8192 := by omega
    have hj : ((cfg0.win 2).blk t).view.emb (ix2 (0 : Fin 1) q)
        = ix2 (0 : Fin 1) (⟨win0_3.index t (1 : Fin 2) * 2048 + q.val, hlt⟩ : Fin 8192) :=
      funext fun a => Fin.ext (by
        match a with
        | ⟨0, _⟩ =>
          show win0_2.index t (0 : Fin 2) * 1 + 1 * 0 = 0
          omega
        | ⟨1, _⟩ =>
          show win0_2.index t (1 : Fin 2) * 2048 + 1 * q.val = win0_3.index t (1 : Fin 2) * 2048 + q.val
          omega)
    rw [hj]
    refine (Cert.KernelIdeal.HostNorms.normsRow_apply _ (0 : Fin 1) ⟨_, hlt⟩).trans ?_
    have hr : (⟨win0_3.index t (1 : Fin 2) * 2048 + q.val, hlt⟩ : Fin 8192)
        = (((cfg0.win 3).blk t).view.emb (ix2 p q)) 1 :=
      Fin.ext (by
        show win0_3.index t (1 : Fin 2) * 2048 + q.val = win0_3.index t (1 : Fin 2) * 2048 + 1 * q.val
        omega)
    exact congrArg (sqnorm (m ((c : Thread nD τ).loc main_arg1))) hr

/-- A table entry is in step `t`'s block iff each coordinate is in the block's range on its axis. -/
theorem mem_blk (t : Fin cfg0.N) (i : S8192x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v3).slice (win0_3.rect t)).set ↔ _
  rw [View.set_slice_whole, Rect.mem_set_unit]
  exact Iff.rfl

/-- Every table entry is in the block of the step at `(row / 1024, column / 2048)`. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-- THE TABLE after the run: the clamped squared distances of the two argument arrays. -/
theorem final (c : Dev nD) : (dats m 0 c).arrAt 3 cfg0.N
    = clamped (m ((c : Thread nD τ).loc main_arg0)) (m ((c : Thread nD τ).loc main_arg1)) :=
  (dats m 0 c).arrAt_eq_of_cover 3 _ (fun t _ => flushed_eq m c t) cover

/-- The run re-posted: the result array at the clamped squared distances, the arguments unchanged. -/
theorem run : θ_run defs (onTc (τ := τ) (main (F := Ideal))) ⟨m, fun _ => 0, ρ⟩ fun r => ∀ c : Dev nD,
      r.2.mem ((c : Thread nD τ).loc main_v3)
        = clamped (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.TableValue

end
-- ==== Proof.FiniteEntries.lean ====
/-
  The precondition says: every entry of the first array has absolute value below `+∞`, and every entry of the
  second has, the two statements each folded by "and" over the whole array and then joined by "and". On the
  extended reals `|x| < +∞` excludes exactly `+∞` and `−∞`, so under the precondition every entry of both
  arrays is a real number.
-/
import proofs.«181156_j11630771438032_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.FiniteEntries

open Cert.Pre_finite_inputs Idealize.ShloMosaic Idealize.ShloMosaic.ValueIdx

/-- The scalar shape has one index. -/
instance : Subsingleton S_.Idx := ⟨fun a b => funext fun d => d.elim0⟩

/-- An extended real whose absolute value compares below the pattern of `+∞` is a real number. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of both arrays is a real number. -/
theorem real_entries (x y : FVec Ideal S8192x128 .f32) (h : fn (F := Ideal) x y = fun _ => 1#1) :
    (∀ j, ∃ r : ℝ, x j = r) ∧ (∀ j, ∃ r : ℝ, y j = r) := by
  have h0 := congrFun h ix0
  dsimp only [fn] at h0
  obtain ⟨hx, hy⟩ := IntOp.andi_eq_one.mp h0
  exact ⟨fun j => real_of_abs_lt (x j) (Host.reduce_andi_all _ _ _ _ ix0 hx j),
    fun j => real_of_abs_lt (y j) (Host.reduce_andi_all _ _ _ _ ix0 hy j)⟩

end Cert.Pre_finite_inputs.FiniteEntries

end
-- ==== Proof.lean ====
/-
  Pairwise squared distances between two families of 8192 points in dimension 128, by the expanded square
  `‖x‖² + ‖y‖² − 2⟨x, y⟩`.

  The tiled program computes, tile by tile of the 8192 × 8192 table, the squared norms of a block of rows of `X` as row
  sums, takes the squared norms of `Y` from a row the host prepared, forms the inner products by one product of the two
  blocks contracted over the coordinates, combines the three and cuts the result off below at zero. The plain program
  computes the same three terms for the whole table at once and does not cut off.

  On the extended reals the two tables agree entry by entry on everything but the cut-off (Proof/TableValue.lean for
  the tiled program: what a step stores, Proof/TileValue.lean, over the host's row of norms, Proof/HostNorms.lean, then
  the tiles cover the table; Proof/RefDist.lean for the plain one). The cut-off is where the precondition enters: when
  every coordinate is a real number (Proof/FiniteEntries.lean) the expanded square is `∑ k, (x k − y k)²`, which is
  nonnegative, so its maximum with zero is itself (Proof/SqDist.lean). With an infinite coordinate this fails — the
  expanded square can be `⊤ − ⊤ = ⊥` — so the statement is one about finite inputs.

  Each program terminates without a fault and leaves its arguments as they were: for the two tiled programs this is
  the generated frame, for the plain one its generated run with the result dropped. The idealized tiled program is
  the tiled program's own text read on the extended reals: nothing was rewritten, so there is nothing to preserve.
-/
import proofs.«181156_j11630771438032_2_alg».proof.Defs
import proofs.«181156_j11630771438032_2_alg».proof.Proof.Gen.Kernel
import proofs.«181156_j11630771438032_2_alg».proof.Proof.Gen.Kernel.Skeleton
import proofs.«181156_j11630771438032_2_alg».proof.Proof.Gen.Kernel.Launch
import proofs.«181156_j11630771438032_2_alg».proof.Proof.Gen.Kernel.Points
import proofs.«181156_j11630771438032_2_alg».proof.Proof.Gen.Kernel.Frame
import proofs.«181156_j11630771438032_2_alg».proof.Proof.Gen.KernelIdeal
import proofs.«181156_j11630771438032_2_alg».proof.Proof.Gen.KernelIdeal.Skeleton
import proofs.«181156_j11630771438032_2_alg».proof.Proof.Gen.KernelIdeal.Launch
import proofs.«181156_j11630771438032_2_alg».proof.Proof.Gen.KernelIdeal.Points
import proofs.«181156_j11630771438032_2_alg».proof.Proof.Gen.KernelIdeal.Frame
import proofs.«181156_j11630771438032_2_alg».proof.Proof.Gen.ReferenceIdeal
import proofs.«181156_j11630771438032_2_alg».proof.Proof.Gen.Pre_finite_inputs
import proofs.«181156_j11630771438032_2_alg».proof.Proof.Gen.KernelIdeal.Value
import proofs.«181156_j11630771438032_2_alg».proof.Proof.Gen.ReferenceIdeal.Run
import proofs.«181156_j11630771438032_2_alg».proof.Proof.Gen.ReferenceIdeal.Read
import proofs.«181156_j11630771438032_2_alg».proof.Proof.SqDist
import proofs.«181156_j11630771438032_2_alg».proof.Proof.RefDist
import proofs.«181156_j11630771438032_2_alg».proof.Proof.TableValue
import proofs.«181156_j11630771438032_2_alg».proof.Proof.FiniteEntries
import Idealize.ShloMosaic.Adequacy
import Idealize.ShloMosaic.Init

noncomputable section

namespace Cert.Proof

open Idealize.ShloMosaic Idealize.ShloMosaic.TcCoe Idealize.SL.Sem

/-- The tiled program, on words: it runs and keeps its arguments. -/
theorem frame_kernel : Cert.frame_Kernel := fun m ρ _ => Cert.Kernel.Gen.frame m ρ

/-- The tiled program, on the extended reals: it runs and keeps its arguments. -/
theorem frame_kernelIdeal : Cert.frame_KernelIdeal := fun m ρ _ => Cert.KernelIdeal.Gen.frame m ρ

/-- The plain program runs and keeps its arguments: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the two readings of the tiled program. -/
theorem preserves : Cert.preserves_Kernel_KernelIdeal := trivial

/-- From memories that agree on the two arrays, under the precondition, both programs end with the table of squared
    distances: the tiled one at the distances cut off at zero, the plain one at the distances as they are, and for
    real coordinates the cut-off changes nothing. -/
theorem algebraic : Cert.algebraic_KernelIdeal_ReferenceIdeal := by
  intro m ρ m' ρ' hpre hagree
  refine ⟨fun c => Cert.SqDist.clamped (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.TableValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.Pre_finite_inputs.FiniteEntries.real_entries _ _ (hpre c)
  show _ = Cert.SqDist.clamped _ _
  rw [Cert.ReferenceIdeal.Read.val_main_v12_eq, Cert.ReferenceIdeal.RefDist.ref_is_dist, (hagree c).1, (hagree c).2]
  exact (Cert.SqDist.clamped_eq_dist _ _ hX hY).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
